-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S8192x8192 : Shape := ⟨2, ![8192, 8192]⟩
abbrev S8192 : Shape := ⟨1, ![8192]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192x8192 .f32) (main_arg6 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S256x8192 .f32) (main_arg1 : FVec F S8192x8192 .f32) (main_arg2 : FVec F S8192x8192 .f32) (main_arg3 : FVec F S8192 .f32) (main_arg4 : FVec F S8192 .f32) (main_arg5 : FVec F S8192x8192 .f32) (main_arg6 : FVec F S8192 .f32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_arg6 main_v13 main_v16
-- ==== Kernel.lean ====
abbrev S256x8192 : Shape := ⟨2, ![256, 8192]⟩
abbrev S8192x8192 : Shape := ⟨2, ![8192, 8192]⟩
abbrev S8192 : Shape := ⟨1, ![8192]⟩
abbrev S1x8192 : Shape := ⟨2, ![1, 8192]⟩
abbrev S256x1024 : Shape := ⟨2, ![256, 1024]⟩
abbrev S512x1024 : Shape := ⟨2, ![512, 1024]⟩
abbrev S1x512 : Shape := ⟨2, ![1, 512]⟩
abbrev S256x512 : Shape := ⟨2, ![256, 512]⟩

abbrev nBuf : Space → Nat
  | .hbm => 11
  | .vmem => 17
  | .smem => 0
  | _ => 0

abbrev bufTy : (tb : Table) → Fin (tcTables nBuf tb) → BufTy
  | .hbm, ⟨0, _⟩ => ⟨S256x8192, .f32⟩
  | .hbm, ⟨1, _⟩ => ⟨S8192x8192, .f32⟩
  | .hbm, ⟨2, _⟩ => ⟨S8192x8192, .f32⟩
  | .hbm, ⟨3, _⟩ => ⟨S8192, .f32⟩
  | .hbm, ⟨4, _⟩ => ⟨S8192, .f32⟩
  | .hbm, ⟨5, _⟩ => ⟨S8192x8192, .f32⟩
  | .hbm, ⟨6, _⟩ => ⟨S8192, .f32⟩
  | .hbm, ⟨7, _⟩ => ⟨S1x8192, .f32⟩
  | .hbm, ⟨8, _⟩ => ⟨S1x8192, .f32⟩
  | .hbm, ⟨9, _⟩ => ⟨S1x8192, .f32⟩
  | .hbm, ⟨10, _⟩ => ⟨S256x8192, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S8192_S1x8192 : S8192.ShapeCasts S1x8192
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x8192.size a
  hwx0_0 : ∀ i : grid0.Coords, EltTy.bits .f32 = 32 ∨ (Rect.block (s := S256x8192) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x8192.size a
  hwx0_1 : ∀ i : grid0.Coords, EltTy.bits .f32 = 32 ∨ (Rect.block (s := S8192x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x8192.size a
  hwx0_2 : ∀ i : grid0.Coords, EltTy.bits .f32 = 32 ∨ (Rect.block (s := S8192x8192) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x8192.size a
  hwx0_3 : ∀ i : grid0.Coords, EltTy.bits .f32 = 32 ∨ (Rect.block (s := S8192x8192) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x8192.size a
  hwx0_6 : ∀ i : grid0.Coords, EltTy.bits .f32 = 32 ∨ (Rect.block (s := S1x8192) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x8192.size a
  hwx0_7 : ∀ i : grid0.Coords, EltTy.bits .f32 = 32 ∨ (Rect.block (s := S256x8192) S256x512.size (cc0_transform_7 i) (hinb0_7 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S256x8192 : Shape := ⟨2, ![256, 8192]⟩
abbrev S8192x8192 : Shape := ⟨2, ![8192, 8192]⟩
abbrev S8192 : Shape := ⟨1, ![8192]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S8192x8192, .f32⟩
  | .hbm, ⟨2, _⟩ => ⟨S8192x8192, .f32⟩
  | .hbm, ⟨3, _⟩ => ⟨S8192, .f32⟩
  | .hbm, ⟨4, _⟩ => ⟨S8192, .f32⟩
  | .hbm, ⟨5, _⟩ => ⟨S8192x8192, .f32⟩
  | .hbm, ⟨6, _⟩ => ⟨S8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S256x8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S1x8192, .f32⟩
  | .hbm, ⟨17, _⟩ => ⟨S256x8192, .f32⟩
  | .hbm, ⟨18, _⟩ => ⟨S256x8192, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  dot_S256x8192_S8192x8192_S256x8192_1_1_0_0_n_n_wf : DotDims.WF S256x8192 S8192x8192 S256x8192 [1] [1] [0] [0] [] []

variable [Facts₀]

def dot_S256x8192_S8192x8192_S256x8192_1_1_0_0_n_n : DotDims S256x8192 S8192x8192 S256x8192 where
  lhsContracting := [1]
  rhsContracting := [1]
  lhsNonContracting := [0]
  rhsNonContracting := [0]
  lhsBatch := []
  rhsBatch := []
  wf := dot_S256x8192_S8192x8192_S256x8192_1_1_0_0_n_n_wf

class Facts : Prop extends Facts₀ where

variable [Facts]
-- ==== Proof.Spec.lean ====
/-
  The function both programs compute, over the extended reals: a linear layer whose weight and bias are sampled by the
  reparameterization trick. With `softplus r = log (1 + exp r)`,

      weight o k = mu o k + softplus (rho o k) * eps o k          (o, k < 8192)
      bias o     = mub o  + softplus (rhob o)  * epsb o           (o < 8192)
      out b o    = (∑ k < 8192, x b k * weight o k) + bias o      (b < 256, o < 8192)

  It imports no program: it is stated over the literal shapes, with indices built from their coordinates.
-/
import Idealize.ShloMosaic.PureOps.Ideal
import Idealize.ShloMosaic.PureOps.Ideal.Laws
import Idealize.ShloMosaic.Lib.ValueIdx

noncomputable section

namespace Cert.VarLinear

open Idealize.ShloMosaic Idealize.ShloMosaic.ValueIdx

/-- The activations' and the result's shape, the weights' shape, the biases' shape. -/
abbrev SX : Shape := ⟨2, ![256, 8192]⟩
abbrev SW : Shape := ⟨2, ![8192, 8192]⟩
abbrev SB : Shape := ⟨1, ![8192]⟩

/-- `softplus r = log (1 + exp r)`, as the extended reals read it. -/
def softplus (r : EReal) : EReal := Ideal.log1p (Ideal.exp r)

/-- The sampled weight at an index: `mu + softplus rho * eps`. -/
def weight (mu rho eps : FVec Ideal SW .f32) (i : SW.Idx) : EReal := mu i + softplus (rho i) * eps i

/-- The sampled bias at an index: `mub + softplus rhob * epsb`. -/
def bias (mub rhob epsb : FVec Ideal SB .f32) (i : SB.Idx) : EReal := mub i + softplus (rhob i) * epsb i

/-- The layer's output: row `b` of `x` against row `o` of the sampled weight, plus the sampled bias at `o`. -/
def out (x : FVec Ideal SX .f32) (mu rho : FVec Ideal SW .f32) (mub rhob : FVec Ideal SB .f32)
    (eps : FVec Ideal SW .f32) (epsb : FVec Ideal SB .f32) : FVec Ideal SX .f32 :=
  fun i => (∑ k : Fin 8192, x (ix2 (i 0) k) * weight mu rho eps (ix2 (i 1) k)) + bias mub rhob epsb (ix1 (i 1))

end Cert.VarLinear

end
-- ==== Proof.Payload.lean ====
/-
  The three values the kernel's body stores, read at an index over the extended reals.

    * the reset: the zero block;
    * the accumulation step: what the accumulator held, plus, at `(p, q)`, the sum over the 1024 columns `j` of the
      activation block at `(p, j)` times the sampled-weight block at `(q, j)` — both operands are contracted along their
      axis 1, and the changes of float format on the way into the product are the identity on the extended reals;
    * the epilogue: the accumulator plus the sampled bias row, the same row under every one of the 256 rows.
-/
import proofs.«161653_j28759101014467_1_alg».proof.Proof.Gen.KernelIdeal.Skeleton
import proofs.«161653_j28759101014467_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.VarLinear

/-! ## The product of two blocks contracted along their columns -/

theorem lhs_row (i : S256x512.Idx) (k : dot_S256x1024_S512x1024_S256x512_1_1_0_0_n_n.contr.Idx) :
    (dot_S256x1024_S512x1024_S256x512_1_1_0_0_n_n.lhsIdx i k 0).val = (i 0).val := by
  unfold DotDims.lhsIdx
  rw [dif_neg (show ¬(0 : Fin S256x1024.rank) ∈ dot_S256x1024_S512x1024_S256x512_1_1_0_0_n_n.lhsBatch by decide),
    dif_pos (show (0 : Fin S256x1024.rank) ∈ dot_S256x1024_S512x1024_S256x512_1_1_0_0_n_n.lhsNonContracting by decide)]
  rfl

theorem lhs_col (i : S256x512.Idx) (k : dot_S256x1024_S512x1024_S256x512_1_1_0_0_n_n.contr.Idx) :
    (dot_S256x1024_S512x1024_S256x512_1_1_0_0_n_n.lhsIdx i k 1).val = (k ⟨0, by decide⟩).val :=
  dot_S256x1024_S512x1024_S256x512_1_1_0_0_n_n.lhsIdx_val_of_single rfl i k

theorem rhs_row (i : S256x512.Idx) (k : dot_S256x1024_S512x1024_S256x512_1_1_0_0_n_n.contr.Idx) :
    (dot_S256x1024_S512x1024_S256x512_1_1_0_0_n_n.rhsIdx i k 0).val = (i 1).val := by
  unfold DotDims.rhsIdx
  rw [dif_neg (show ¬(0 : Fin S512x1024.rank) ∈ dot_S256x1024_S512x1024_S256x512_1_1_0_0_n_n.rhsBatch by decide),
    dif_pos (show (0 : Fin S512x1024.rank) ∈ dot_S256x1024_S512x1024_S256x512_1_1_0_0_n_n.rhsNonContracting by decide)]
  rfl

theorem rhs_col (i : S256x512.Idx) (k : dot_S256x1024_S512x1024_S256x512_1_1_0_0_n_n.contr.Idx) :
    (dot_S256x1024_S512x1024_S256x512_1_1_0_0_n_n.rhsIdx i k 1).val = (k ⟨0, by decide⟩).val :=
  dot_S256x1024_S512x1024_S256x512_1_1_0_0_n_n.rhsIdx_val_of_single rfl i k

/-- Into the zero accumulator, the product of a [256,1024] block and a [512,1024] block contracted along their
    columns is, at `(p, q)`, the sum over the columns `j` of `l (p, j) * r (q, j)`. -/
theorem rowsTimesRows_apply {φ₁ φ₂ : FTy} (l : FVec Ideal S256x1024 φ₁) (r : FVec Ideal S512x1024 φ₂) (p : Fin 256) (q : Fin 512) :
    matmul dot_S256x1024_S512x1024_S256x512_1_1_0_0_n_n none l r (constant (F := Ideal) S256x512 .f32 0x00000000#32) (ix2 p q)
      = ∑ j : Fin 1024, l (ix2 p j) * r (ix2 q j) := by
  simp only [matmul]
  rw [Ideal.matmul_constant_zero_apply,
    ← Equiv.sum_comp (ValueIdx.contrEquiv1 dot_S256x1024_S512x1024_S256x512_1_1_0_0_n_n 1024 rfl rfl).symm]
  refine Finset.sum_congr rfl fun j _ => ?_
  have hj := ValueIdx.contrEquiv1_symm_val dot_S256x1024_S512x1024_S256x512_1_1_0_0_n_n 1024 rfl rfl j
  have el : dot_S256x1024_S512x1024_S256x512_1_1_0_0_n_n.lhsIdx (ix2 p q)
      ((ValueIdx.contrEquiv1 dot_S256x1024_S512x1024_S256x512_1_1_0_0_n_n 1024 rfl rfl).symm j) = ix2 p j :=
    funext fun a => Fin.ext (by
      match a with
      | ⟨0, _⟩ => exact lhs_row _ _
      | ⟨1, _⟩ => exact (lhs_col _ _).trans hj)
  have er : dot_S256x1024_S512x1024_S256x512_1_1_0_0_n_n.rhsIdx (ix2 p q)
      ((ValueIdx.contrEquiv1 dot_S256x1024_S512x1024_S256x512_1_1_0_0_n_n 1024 rfl rfl).symm j) = ix2 q j :=
    funext fun a => Fin.ext (by
      match a with
      | ⟨0, _⟩ => exact rhs_row _ _
      | ⟨1, _⟩ => exact (rhs_col _ _).trans hj)
  rw [el, er]

/-! ## The three stored values at an index -/

/-- The reset stores zero everywhere. -/
theorem reset_apply (i : S256x512.Idx) : k0_pay1 (F := Ideal) i = 0 := by
  unfold k0_pay1
  rw [shapeCast_self]
  exact Ideal.ofBits_zero_f32

/-- The accumulation step at `(p, q)`: the accumulator there plus the block product's entry, the second operand being the
    sampled weight `mu + softplus rho * eps` of the three weight blocks. -/
theorem step_apply (rho mu eps : Vec Ideal S512x1024 .f32) (x : Vec Ideal S256x1024 .f32) (acc : Vec Ideal S256x512 .f32)
    (p : Fin 256) (q : Fin 512) :
    k0_pay2 (F := Ideal) rho mu eps x acc (ix2 p q)
      = acc (ix2 p q) + ∑ j : Fin 1024, x (ix2 p j) * (mu (ix2 q j) + softplus (rho (ix2 q j)) * eps (ix2 q j)) := by
  unfold k0_pay2
  rw [shapeCast_self]
  refine (addf_apply _ _ _).trans (congrArg (acc (ix2 p q) + ·) ?_)
  exact (rowsTimesRows_apply _ _ p q).trans (Finset.sum_congr rfl fun j _ => rfl)

/-- The epilogue at `(p, q)`: the accumulator there plus the sampled bias `mub + softplus rhob * epsb` at column `q` of
    the three bias rows. -/
theorem epilogue_apply (rhob mub epsb : Vec Ideal S1x512 .f32) (acc : Vec Ideal S256x512 .f32) (p : Fin 256) (q : Fin 512) :
    k0_pay3 (F := Ideal) rhob mub epsb acc (ix2 p q)
      = acc (ix2 p q) + (mub (ix2 (0 : Fin 1) q) + softplus (rhob (ix2 (0 : Fin 1) q)) * epsb (ix2 (0 : Fin 1) q)) := by
  unfold k0_pay3
  rw [shapeCast_self, shapeCast_self, shapeCast_self]
  refine (addf_apply _ _ _).trans (congrArg (acc (ix2 p q) + ·) ?_)
  exact (broadcastTo_1b_ab_apply _ _ p q).trans rfl

end Cert.KernelIdeal.Payload

end
-- ==== Proof.Pieces.lean ====
/-
  What each control case of the body leaves behind, as the stored values of what it loaded — at any float instance.

  The body has three cases, by the position `k` of the grid point along the contraction axis:
    * first (`k = 0`): the accumulator is reset to zero and then one accumulation step is stored over it, so it ends
      at the step taken from the zero block;
    * middle (`0 < k < 7`): one accumulation step from what the point before left in the accumulator;
    * last (`k = 7`): the same step, and the output block is the epilogue of the accumulator after that step.
  Each is one store covering its whole buffer, whose loads read whole staging buffers; a load of the accumulator that
  follows a store into it reads what that store wrote.
-/
import proofs.«161653_j28759101014467_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]
variable (c : Dev nD) (i : grid0.Coords)
  (arg2 : Memref sig .tc .vmem S256x1024 .f32) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S512x1024 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S256x512 .f32) (harg9 : arg9.IsWhole)
  (arg10 : Memref sig .tc .vmem S256x512 .f32) (harg10 : arg10.IsWhole)
  (x0 : Vec F S256x1024 .f32) (x1 x2 x3 : Vec F S512x1024 .f32) (x4 x5 x6 : Vec F S1x512 .f32)

theorem hz : (![0, 0] : Fin 2 → Nat) = fun _ => 0 := funext fun a => by fin_cases a <;> rfl

/-- The first case leaves the accumulator at one step from the zero block. -/
theorem scratch_first (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 x5 x6 = k0_pay2 x2 x1 x3 x0 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S256x512) hz, View.readCov_unit_zero (S := S256x512) _ hz]
  simp only [View.readAt_eq_ld, harg2.read_unread, harg3.read_unread, harg4.read_unread, harg5.read_unread,
    View.ld_unit_zero (S := S256x1024) hz, View.ld_unit_zero (S := S512x1024) hz]

/-- A middle case leaves the accumulator at one step from what it held. -/
theorem scratch_middle (hc0 : ¬cond0_0 i) (hc1 : ¬cond0_1 i) (xs0 : Vec F S256x512 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 x2 x1 x3 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  rw [View.canon_unit_zero hz]
  simp only [View.readAt_eq_ld, harg2.read_unread, harg3.read_unread, harg4.read_unread, harg5.read_unread, harg10.read_unread,
    View.ld_unit_zero (S := S256x1024) hz, View.ld_unit_zero (S := S512x1024) hz, View.ld_unit_zero (S := S256x512) hz]

/-- The last case leaves the accumulator at one step from what it held, -/
theorem scratch_last (hc0 : ¬cond0_0 i) (hc1 : cond0_1 i) (xs0 : Vec F S256x512 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 x2 x1 x3 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg10.read_unread,
    View.ld_unit_zero (S := S256x1024) hz, View.ld_unit_zero (S := S512x1024) hz, View.ld_unit_zero (S := S256x512) hz]

/-- and the output block at the epilogue of that accumulator. -/
theorem output_last (hc0 : ¬cond0_0 i) (hc1 : cond0_1 i) (xs0 : Vec F S256x512 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 x5 x4 x6 (k0_pay2 x2 x1 x3 x0 xs0) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S256x512) _ hz]
  simp only [View.readAt_eq_ld, harg2.read_unread, harg3.read_unread, harg4.read_unread, harg5.read_unread,
    harg6.read_unread, harg7.read_unread, harg8.read_unread, harg10.read_unread,
    View.ld_unit_zero (S := S256x1024) hz, View.ld_unit_zero (S := S512x1024) hz, View.ld_unit_zero (S := S256x512) hz,
    View.ld_unit_zero (S := S1x512) hz]

end Cert.KernelIdeal.Pieces

end
-- ==== Proof.Blocks.lean ====
/-
  The blocks the body loads, as entries of the argument arrays.

  Grid point `t` (of 128, in row-major order over 16 output tiles by 8 contraction tiles) sits at output tile `t / 8`
  and contraction tile `t % 8`. There the activation window holds columns `t % 8 * 1024 + j` of `x`; each of the three
  weight windows holds rows `t / 8 * 512 + q` and those same columns of its matrix; each of the three bias windows holds
  entries `t / 8 * 512 + q` of its vector, which the host reshaped from [8192] to one row [1, 8192] before the region;
  and the output window's block is columns `t / 8 * 512 + q` of the result.
-/
import proofs.«161653_j28759101014467_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

/-- The column of the contraction axis that point `t`'s tile holds at its position `j`. -/
def col (t : ℕ) (j : Fin 1024) : Fin 8192 := ⟨t % 8 * 1024 + j.val, by have := j.isLt; omega⟩

/-- The output column (row of the weights, entry of the biases) that point `t`'s tile holds at its position `q`. -/
def row (t : ℕ) (q : Fin 512) : Fin 8192 := ⟨t / 8 % 16 * 512 + q.val, by have := q.isLt; omega⟩

/-! ## The index maps, decided once over the grid -/

theorem index_x : ∀ t : Fin cfg0.N, win0_0.index t 0 = 0 ∧ win0_0.index t 1 = t.val % 8 :=
  (by decide +kernel : ∀ t : Fin grid0.N, win0_0.index t 0 = 0 ∧ win0_0.index t 1 = t.val % 8)
theorem index_w1 : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)
theorem index_w2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
theorem index_w3 : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)
theorem index_b4 : ∀ t : Fin cfg0.N, win0_4.index t 0 = 0 ∧ win0_4.index t 1 = t.val / 8 :=
  (by decide +kernel : ∀ t : Fin grid0.N, win0_4.index t 0 = 0 ∧ win0_4.index t 1 = t.val / 8)
theorem index_b5 : ∀ t : Fin cfg0.N, win0_5.index t 0 = 0 ∧ win0_5.index t 1 = t.val / 8 :=
  (by decide +kernel : ∀ t : Fin grid0.N, win0_5.index t 0 = 0 ∧ win0_5.index t 1 = t.val / 8)
theorem index_b6 : ∀ t : Fin cfg0.N, win0_6.index t 0 = 0 ∧ win0_6.index t 1 = t.val / 8 :=
  (by decide +kernel : ∀ t : Fin grid0.N, win0_6.index t 0 = 0 ∧ win0_6.index t 1 = t.val / 8)
theorem index_b7 : ∀ t : Fin cfg0.N, win0_7.index t 0 = 0 ∧ win0_7.index t 1 = t.val / 8 :=
  (by decide +kernel : ∀ t : Fin grid0.N, win0_7.index t 0 = 0 ∧ win0_7.index t 1 = t.val / 8)

variable {F : FTy → Type} [FloatOps F]
variable (m : (ℓ : Loc nD τ sig) → Buf (Elt F) ℓ)

/-! ## The activation and weight blocks -/

/-- The activation block at `(p, j)` is `x` at `(p, t % 8 * 1024 + j)`. -/
theorem x_block (c : Dev nD) (t : Fin cfg0.N) (p : Fin 256) (j : Fin 1024) :
    (iblk m c 0 t : Vec F S256x1024 .f32) (ix2 p j) = m ((c : Thread nD τ).loc main_arg0) (ix2 p (col t.val j)) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * p.val = p.val; rw [(index_x t).1]; omega
  | ⟨1, _⟩ => show win0_0.index t 1 * 1024 + 1 * j.val = t.val % 8 * 1024 + j.val; rw [(index_x t).2]; omega

/-- The mean-weight block at `(q, j)` is `mu` at `(t / 8 * 512 + q, t % 8 * 1024 + j)`. -/
theorem mu_block (c : Dev nD) (t : Fin cfg0.N) (q : Fin 512) (j : Fin 1024) :
    (iblk m c 1 t : Vec F S512x1024 .f32) (ix2 q j) = m ((c : Thread nD τ).loc main_arg1) (ix2 (row t.val q) (col t.val j)) := by
  have hN : t.val < 128 := lt_of_lt_of_eq t.isLt N_0
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 512 + 1 * q.val = t.val / 8 % 16 * 512 + q.val; rw [(index_w1 t).1]; omega
  | ⟨1, _⟩ => show win0_1.index t 1 * 1024 + 1 * j.val = t.val % 8 * 1024 + j.val; rw [(index_w1 t).2]; omega

/-- The same for the spread-weight block and `rho`, -/
theorem rho_block (c : Dev nD) (t : Fin cfg0.N) (q : Fin 512) (j : Fin 1024) :
    (iblk m c 2 t : Vec F S512x1024 .f32) (ix2 q j) = m ((c : Thread nD τ).loc main_arg2) (ix2 (row t.val q) (col t.val j)) := by
  have hN : t.val < 128 := lt_of_lt_of_eq t.isLt N_0
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 512 + 1 * q.val = t.val / 8 % 16 * 512 + q.val; rw [(index_w2 t).1]; omega
  | ⟨1, _⟩ => show win0_2.index t 1 * 1024 + 1 * j.val = t.val % 8 * 1024 + j.val; rw [(index_w2 t).2]; omega

/-- and for the noise block and `eps`. -/
theorem eps_block (c : Dev nD) (t : Fin cfg0.N) (q : Fin 512) (j : Fin 1024) :
    (iblk m c 3 t : Vec F S512x1024 .f32) (ix2 q j) = m ((c : Thread nD τ).loc main_arg5) (ix2 (row t.val q) (col t.val j)) := by
  have hN : t.val < 128 := lt_of_lt_of_eq t.isLt N_0
  unfold iblk
  rw [View.read_apply]
  show V m c main_arg5 _ = _
  rw [V_main_arg5]
  refine congrArg (m ((c : Thread nD τ).loc main_arg5)) (funext fun a => Fin.ext ?_)
  match a with
  | ⟨0, _⟩ => show win0_3.index t 0 * 512 + 1 * q.val = t.val / 8 % 16 * 512 + q.val; rw [(index_w3 t).1]; omega
  | ⟨1, _⟩ => show win0_3.index t 1 * 1024 + 1 * j.val = t.val % 8 * 1024 + j.val; rw [(index_w3 t).2]; omega

/-! ## The bias blocks, through the host's reshape to one row -/

/-- The mean-bias row the region finds is the host's reshape of the vector, and its block at `(0, q)` is the vector at `t / 8 * 512 + q`. -/
theorem mub_block_entry (c : Dev nD) :
    (V m c main_v0 : S1x8192.Idx → F .f32) = shapeCast S1x8192 (m ((c : Thread nD τ).loc main_arg3)) shapeCasts_S8192_S1x8192 := by
  dsimp only [Gen.V, Gen.hostOps0]; after_results; rfl

theorem mub_block (c : Dev nD) (t : Fin cfg0.N) (q : Fin 512) :
    (iblk m c 4 t : Vec F S1x512 .f32) (ix2 (0 : Fin 1) q) = m ((c : Thread nD τ).loc main_arg3) (ix1 (row t.val q)) := by
  have hN : t.val < 128 := lt_of_lt_of_eq t.isLt N_0
  unfold iblk
  rw [View.read_apply]
  show V m c main_v0 _ = _
  rw [mub_block_entry]
  refine (congrArg (shapeCast S1x8192 (m ((c : Thread nD τ).loc main_arg3)) shapeCasts_S8192_S1x8192)
    (funext fun a => Fin.ext ?_)).trans (shapeCast_a_1a_apply _ _ (0 : Fin 1) (row t.val q))
  match a with
  | ⟨0, _⟩ => show win0_4.index t 0 * 1 + 1 * 0 = 0; rw [(index_b4 t).1]
  | ⟨1, _⟩ => show win0_4.index t 1 * 512 + 1 * q.val = t.val / 8 % 16 * 512 + q.val; rw [(index_b4 t).2]; omega

/-- The same for the spread-bias row, -/
theorem rhob_block_entry (c : Dev nD) :
    (V m c main_v1 : S1x8192.Idx → F .f32) = shapeCast S1x8192 (m ((c : Thread nD τ).loc main_arg4)) shapeCasts_S8192_S1x8192 := by
  dsimp only [Gen.V, Gen.hostOps0]; after_results; rfl

theorem rhob_block (c : Dev nD) (t : Fin cfg0.N) (q : Fin 512) :
    (iblk m c 5 t : Vec F S1x512 .f32) (ix2 (0 : Fin 1) q) = m ((c : Thread nD τ).loc main_arg4) (ix1 (row t.val q)) := by
  have hN : t.val < 128 := lt_of_lt_of_eq t.isLt N_0
  unfold iblk
  rw [View.read_apply]
  show V m c main_v1 _ = _
  rw [rhob_block_entry]
  refine (congrArg (shapeCast S1x8192 (m ((c : Thread nD τ).loc main_arg4)) shapeCasts_S8192_S1x8192)
    (funext fun a => Fin.ext ?_)).trans (shapeCast_a_1a_apply _ _ (0 : Fin 1) (row t.val q))
  match a with
  | ⟨0, _⟩ => show win0_5.index t 0 * 1 + 1 * 0 = 0; rw [(index_b5 t).1]
  | ⟨1, _⟩ => show win0_5.index t 1 * 512 + 1 * q.val = t.val / 8 % 16 * 512 + q.val; rw [(index_b5 t).2]; omega

/-- and for the bias noise row. -/
theorem epsb_block_entry (c : Dev nD) :
    (V m c main_v2 : S1x8192.Idx → F .f32) = shapeCast S1x8192 (m ((c : Thread nD τ).loc main_arg6)) shapeCasts_S8192_S1x8192 := by
  dsimp only [Gen.V, Gen.hostOps0]; after_results; rfl

theorem epsb_block (c : Dev nD) (t : Fin cfg0.N) (q : Fin 512) :
    (iblk m c 6 t : Vec F S1x512 .f32) (ix2 (0 : Fin 1) q) = m ((c : Thread nD τ).loc main_arg6) (ix1 (row t.val q)) := by
  have hN : t.val < 128 := lt_of_lt_of_eq t.isLt N_0
  unfold iblk
  rw [View.read_apply]
  show V m c main_v2 _ = _
  rw [epsb_block_entry]
  refine (congrArg (shapeCast S1x8192 (m ((c : Thread nD τ).loc main_arg6)) shapeCasts_S8192_S1x8192)
    (funext fun a => Fin.ext ?_)).trans (shapeCast_a_1a_apply _ _ (0 : Fin 1) (row t.val q))
  match a with
  | ⟨0, _⟩ => show win0_6.index t 0 * 1 + 1 * 0 = 0; rw [(index_b6 t).1]
  | ⟨1, _⟩ => show win0_6.index t 1 * 512 + 1 * q.val = t.val / 8 % 16 * 512 + q.val; rw [(index_b6 t).2]; omega

end Cert.KernelIdeal.Blocks

end
-- ==== Proof.LibBlockSum.lean ====
/-
  A sum over `a * b` consecutive indices, cut into `a` consecutive blocks of `b` indices each: the whole sum is the
  sum over the blocks of the sums inside each block. Only commutativity and associativity of `+` are used, so the
  law holds in every commutative additive monoid — in particular on the extended reals, where no finiteness is needed.
-/
import Mathlib.Algebra.BigOperators.Fin
import Mathlib.Logic.Equiv.Fin.Basic

namespace Cert.BlockSum

open Finset

/-- Position `j` of block `k` is an index below `a * b`. -/
theorem block_lt {a b : ℕ} (k : Fin a) (j : Fin b) : k.val * b + j.val < a * b :=
  Nat.lt_of_lt_of_le (Nat.add_lt_add_left j.isLt _) (by rw [← Nat.succ_mul]; exact Nat.mul_le_mul_right _ k.isLt)

/-- The sum of `g` over the `a * b` indices, read block by block: block `k` holds the indices `k * b + j`, `j < b`. -/
theorem sum_blocks {M : Type*} [AddCommMonoid M] (a b : ℕ) (g : Fin (a * b) → M) :
    ∑ i : Fin (a * b), g i = ∑ k : Fin a, ∑ j : Fin b, g ⟨k.val * b + j.val, block_lt k j⟩ := by
  rw [← finProdFinEquiv.sum_comp, Fintype.sum_prod_type]
  refine Finset.sum_congr rfl fun k _ => Finset.sum_congr rfl fun j _ => congrArg g (Fin.ext ?_)
  show j.val + b * k.val = k.val * b + j.val
  rw [Nat.mul_comm, Nat.add_comm]

/-- The same over `n` indices when `n` is the product `a * b`. -/
theorem sum_blocks_of_eq {M : Type*} [AddCommMonoid M] (a b n : ℕ) (hn : a * b = n) (g : Fin n → M) :
    ∑ i : Fin n, g i = ∑ k : Fin a, ∑ j : Fin b, g ⟨k.val * b + j.val, hn ▸ block_lt k j⟩ := by
  subst hn
  exact sum_blocks a b g

end Cert.BlockSum
-- ==== Proof.Accumulate.lean ====
/-
  The accumulator across the contraction tiles, over the extended reals.

  Within one output tile the eight grid points `8 * o + s`, `s = 0 … 7`, run in order. The first resets the accumulator
  and adds its addend; each later one adds its addend to what the point before left. Point `n`'s addend at `(p, q)` is
  the partial product over its 1024 columns,

      ∑ j < 1024, x (p, n % 8 * 1024 + j) * weight (n / 8 * 512 + q, n % 8 * 1024 + j),

  so after the last point the accumulator holds zero plus the eight partial products — and, the eight column ranges
  being the consecutive blocks of the 8192 columns, that is the whole product `∑ k < 8192, x (p, k) * weight (r, k)`.
  Regrouping the sum uses only that `+` on the extended reals is commutative and associative.
-/
import proofs.«161653_j28759101014467_1_alg».proof.Proof.Gen.KernelIdeal.Value
import proofs.«161653_j28759101014467_1_alg».proof.Proof.Spec
import proofs.«161653_j28759101014467_1_alg».proof.Proof.LibBlockSum
import proofs.«161653_j28759101014467_1_alg».proof.Proof.Payload
import proofs.«161653_j28759101014467_1_alg».proof.Proof.Pieces
import proofs.«161653_j28759101014467_1_alg».proof.Proof.Blocks

noncomputable section

namespace Cert.KernelIdeal.Accumulate

open Cert.KernelIdeal Cert.KernelIdeal.Gen Idealize.ShloMosaic Idealize.ShloMosaic.TcCoe Idealize.SL.Sem
open Idealize.ShloMosaic.ValueIdx Cert.VarLinear Cert.KernelIdeal.Blocks

variable (m : (ℓ : Loc nD τ sig) → Buf (Elt Ideal) ℓ) (c : Dev nD)

/-- The activations of the launch arrays. -/
def X : FVec Ideal SX .f32 := m ((c : Thread nD τ).loc main_arg0)

/-- The sampled weight of the launch arrays. -/
def W : SW.Idx → EReal :=
  weight (m ((c : Thread nD τ).loc main_arg1)) (m ((c : Thread nD τ).loc main_arg2)) (m ((c : Thread nD τ).loc main_arg5))

/-- Point `n`'s addend at `(p, q)`: the partial product over the 1024 columns of its contraction tile. -/
def addend (n : ℕ) (p : Fin 256) (q : Fin 512) : EReal :=
  ∑ j : Fin 1024, X m c (ix2 p (col n j)) * W m c (ix2 (row n q) (col n j))

/-- One accumulation step over the blocks of point `t` adds that point's addend. -/
theorem step_blocks (t : Fin cfg0.N) (acc : Vec Ideal S256x512 .f32) (p : Fin 256) (q : Fin 512) :
    k0_pay2 (F := Ideal) (iblk m c 2 t) (iblk m c 1 t) (iblk m c 3 t) (iblk m c 0 t) acc (ix2 p q)
      = acc (ix2 p q) + addend m c t.val p q := by
  refine (Payload.step_apply (iblk m c 2 t) (iblk m c 1 t) (iblk m c 3 t) (iblk m c 0 t) acc p q).trans
    (congrArg (acc (ix2 p q) + ·) (Finset.sum_congr rfl fun j _ => ?_))
  rw [x_block m c t p j, mu_block m c t q j, rho_block m c t q j, eps_block m c t q j]
  rfl

/-- At the first point of an output tile the accumulator ends at zero plus the point's addend, whatever it held. -/
theorem scAt_first (n : ℕ) (hb : n < cfg0.N) (h0 : n % 8 = 0) (acc : Vec Ideal S256x512 .f32) (y : S256x512.Idx) :
    Value.scAt0_0 m c n hb acc y = 0 + addend m c n (y 0) (y 1) := by
  have h1 : ¬n % 8 = 7 := by omega
  obtain ⟨p, q, rfl⟩ : ∃ (p : Fin 256) (q : Fin 512), y = ix2 p q := ⟨y 0, y 1, eq_ix2 y⟩
  unfold Value.scAt0_0
  rw [dif_pos h0, dif_neg h1]
  refine (congrFun (Pieces.scratch_first c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) scM0_0 (Memref.isWhole_whole _) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩)
    ((hcond0_0 ⟨n, hb⟩).mpr h0) (fun h => h1 ((hcond0_1 ⟨n, hb⟩).mp h))) (ix2 p q)).trans ?_
  refine (step_blocks m c ⟨n, hb⟩ (k0_pay1 (F := Ideal)) p q).trans ?_
  rw [Payload.reset_apply]

/-- At every later point it ends at what it held plus the point's addend. -/
theorem scAt_later (n : ℕ) (hb : n < cfg0.N) (h0 : ¬n % 8 = 0) (acc : Vec Ideal S256x512 .f32) (y : S256x512.Idx) :
    Value.scAt0_0 m c n hb acc y = acc y + addend m c n (y 0) (y 1) := by
  obtain ⟨p, q, rfl⟩ : ∃ (p : Fin 256) (q : Fin 512), y = ix2 p q := ⟨y 0, y 1, eq_ix2 y⟩
  unfold Value.scAt0_0
  rw [dif_neg h0]
  by_cases h1 : n % 8 = 7
  · rw [dif_pos h1]
    refine (congrFun (Pieces.scratch_last c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) scM0_0 (Memref.isWhole_whole _) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩)
      (fun h => h0 ((hcond0_0 ⟨n, hb⟩).mp h)) ((hcond0_1 ⟨n, hb⟩).mpr h1) acc) (ix2 p q)).trans ?_
    exact step_blocks m c ⟨n, hb⟩ acc p q
  · rw [dif_neg h1]
    refine (congrFun (Pieces.scratch_middle c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) scM0_0 (Memref.isWhole_whole _) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩)
      (fun h => h0 ((hcond0_0 ⟨n, hb⟩).mp h)) (fun h => h1 ((hcond0_1 ⟨n, hb⟩).mp h)) acc) (ix2 p q)).trans ?_
    exact step_blocks m c ⟨n, hb⟩ acc p q

/-- So after point `n` the accumulator holds zero plus the addends of its output tile's points up to `n`. -/
theorem scratch_after (n : ℕ) (hn : n < cfg0.N) (p : Fin 256) (q : Fin 512) :
    (outsAt0 m c n hn).2 (ix2 p q)
      = 0 + ∑ s ∈ Finset.range (n % 8 + 1), addend m c (8 * (n / 8) + s) p q := by
  have hN : n < 128 := lt_of_lt_of_eq hn N_0
  refine (congrFun (Value.soutsAt0_0_eq m c ⟨n, hn⟩) (ix2 p q)).trans ?_
  exact Pipeline.accAt_add_apply _ _ (fun _ => (0 : EReal)) (fun k y => addend m c k (y 0) (y 1)) (8 * (n / 8)) 7
    (fun h i => scAt_first m c _ h (by omega) _ i)
    (fun k h acc i hlt hle => scAt_later m c k h (by omega) acc i)
    (n % 8) (by omega) _ (ix2 p q)

/-- The eight addends of an output tile are the whole product: the eight column ranges are the consecutive blocks of
    the 8192 columns. -/
theorem sum_addends (t : ℕ) (p : Fin 256) (q : Fin 512) :
    ∑ s ∈ Finset.range 8, addend m c (8 * (t / 8) + s) p q
      = ∑ k : Fin 8192, X m c (ix2 p k) * W m c (ix2 (row t q) k) := by
  rw [Finset.sum_range, BlockSum.sum_blocks_of_eq 8 1024 8192 rfl]
  refine Finset.sum_congr rfl fun s _ => ?_
  have hs := s.isLt
  unfold addend
  refine Finset.sum_congr rfl fun j _ => ?_
  have hc : col (8 * (t / 8) + s.val) j = ⟨s.val * 1024 + j.val, by have := j.isLt; omega⟩ :=
    Fin.ext (by show (8 * (t / 8) + s.val) % 8 * 1024 + j.val = s.val * 1024 + j.val; omega)
  have hr : row (8 * (t / 8) + s.val) q = row t q :=
    Fin.ext (by show (8 * (t / 8) + s.val) / 8 % 16 * 512 + q.val = t / 8 % 16 * 512 + q.val; omega)
  rw [hc, hr]

end Cert.KernelIdeal.Accumulate

end
-- ==== Proof.Final.lean ====
/-
  From what the last point of each output tile writes back to the whole result array.

  The output window is written back only at the last contraction tile of each output tile (`t % 8 = 7`), and there its
  block is columns `t / 8 * 512 + q` of the result. What is written is the epilogue of the accumulator after that point:
  zero plus the eight partial products — the whole product — plus the sampled bias; that is the layer's output function
  read through the block. The sixteen written blocks tile the 8192 columns (column `o` is in the block of output tile
  `o / 512`), so the result array ends holding the layer's output function of the launch arrays.
-/
import proofs.«161653_j28759101014467_1_alg».proof.Proof.Gen.KernelIdeal.Value
import proofs.«161653_j28759101014467_1_alg».proof.Proof.Spec
import proofs.«161653_j28759101014467_1_alg».proof.Proof.Payload
import proofs.«161653_j28759101014467_1_alg».proof.Proof.Pieces
import proofs.«161653_j28759101014467_1_alg».proof.Proof.Blocks
import proofs.«161653_j28759101014467_1_alg».proof.Proof.Accumulate

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.VarLinear Cert.KernelIdeal.Blocks Cert.KernelIdeal.Accumulate

variable (m : (ℓ : Loc nD τ sig) → Buf (Elt Ideal) ℓ) (ρ : Dev nD → PrngReg)

/-- The layer's output function of the launch arrays, as contents of the result array. -/
def result (c : Dev nD) : Buf (Elt Ideal) ((c : Thread nD τ).loc main_v3) :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- At the last point `t` of an output tile, the body's output block at `(p, q)` is the layer's output at row `p` and
    column `t / 8 * 512 + q`: the epilogue of one more step from what the seven points before left. -/
theorem output_apply (c : Dev nD) (t : Fin cfg0.N) (h0 : ¬t.val % 8 = 0) (h7 : t.val % 8 = 7) (p : Fin 256) (q : Fin 512) :
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 (ix2 p q)
      = result m c (ix2 p (row t.val q)) := by
  have e6 : (t.val - 1) % 8 + 1 = 7 := by omega
  have ed : (t.val - 1) / 8 = t.val / 8 := by omega
  have et : t.val = 8 * (t.val / 8) + 7 := by omega
  have h8 : ∑ s ∈ Finset.range 8, addend m c (8 * (t.val / 8) + s) p q
      = ∑ s ∈ Finset.range 7, addend m c (8 * (t.val / 8) + s) p q + addend m c (8 * (t.val / 8) + 7) p q :=
    Finset.sum_range_succ _ 7
  have hlast : addend m c t.val p q = addend m c (8 * (t.val / 8) + 7) p q :=
    congrArg (fun n => addend m c n p q) et
  refine (congrFun (Pieces.output_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) (fun h => h0 ((hcond0_0 t).mp h)) ((hcond0_1 t).mpr h7) (outsAt0 m c (t.val - 1) (Nat.lt_of_le_of_lt (Nat.sub_le _ _) t.isLt)).2) (ix2 p q)).trans ?_
  refine (Payload.epilogue_apply (iblk m c 5 t) (iblk m c 4 t) (iblk m c 6 t) (k0_pay2 (F := Ideal) (iblk m c 2 t) (iblk m c 1 t) (iblk m c 3 t) (iblk m c 0 t) (outsAt0 m c (t.val - 1) (Nat.lt_of_le_of_lt (Nat.sub_le _ _) t.isLt)).2) p q).trans ?_
  rw [step_blocks m c t (outsAt0 m c (t.val - 1) (Nat.lt_of_le_of_lt (Nat.sub_le _ _) t.isLt)).2 p q, scratch_after m c (t.val - 1) (Nat.lt_of_le_of_lt (Nat.sub_le _ _) t.isLt) p q, e6, ed, zero_add, hlast, ← h8,
    sum_addends m c t.val p q, mub_block m c t q, rhob_block m c t q, epsb_block m c t q]
  rfl

/-- What the last point of an output tile writes back is the layer's output function read through the point's block. -/
theorem flushed_eq (c : Dev nD) (t : Fin cfg0.N) (hf : (cfg0.win 7).flush t = true) :
    (dats m 0 c).flushed 7 t = ((cfg0.win 7).blk t).view.read (Elt Ideal) (result m c) := by
  have h7 : t.val % 8 = 7 := (flush0_7 t).mp hf
  have h0 : ¬t.val % 8 = 0 := by omega
  have hN : t.val < 128 := lt_of_lt_of_eq t.isLt N_0
  rw [Value.flushed7_C m c t h0 h7]
  refine funext fun y => ?_
  obtain ⟨p, q, rfl⟩ : ∃ (p : Fin 256) (q : Fin 512), y = ix2 p q := ⟨y 0, y 1, eq_ix2 y⟩
  rw [View.read_apply]
  have e : ((cfg0.win 7).blk t).view.emb (ix2 p q) = ix2 p (row t.val q) := funext fun a => Fin.ext (by
    match a with
    | ⟨0, _⟩ => show win0_7.index t 0 * 256 + 1 * p.val = p.val; rw [(index_b7 t).1]; omega
    | ⟨1, _⟩ => show win0_7.index t 1 * 512 + 1 * q.val = t.val / 8 % 16 * 512 + q.val; rw [(index_b7 t).2]; omega)
  rw [e]
  exact output_apply m c t h0 h7 p q

/-- Every index of the result array is in the block written back at the last point of its output tile. -/
theorem cover (c : Dev nD) (i : S256x8192.Idx) :
    ∃ t : Fin cfg0.N, (cfg0.win 7).flush t = true ∧ i ∈ ((cfg0.win 7).blk t).view.set := by
  have hi0 : (i 0).val < 256 := (i 0).isLt
  have hi1 : (i 1).val < 8192 := (i 1).isLt
  obtain ⟨t, ht⟩ : ∃ t : Fin cfg0.N, t.val = 8 * ((i 1).val / 512) + 7 :=
    ⟨⟨8 * ((i 1).val / 512) + 7, by rw [show cfg0.N = 128 from N_0]; omega⟩, rfl⟩
  refine ⟨t, (flush0_7 t).mpr (by omega), ?_⟩
  show i ∈ ((View.whole main_v3).slice (win0_7.rect t)).set
  rw [View.set_slice_whole, Rect.mem_set_unit]
  intro a
  match a with
  | ⟨0, _⟩ =>
    show win0_7.index t 0 * 256 ≤ (i 0).val ∧ (i 0).val < win0_7.index t 0 * 256 + 256
    rw [(index_b7 t).1]; omega
  | ⟨1, _⟩ =>
    show win0_7.index t 1 * 512 ≤ (i 1).val ∧ (i 1).val < win0_7.index t 1 * 512 + 512
    rw [(index_b7 t).2]; omega

/-- So the result array ends holding the layer's output function of the launch arrays. -/
theorem final (c : Dev nD) : (dats m 0 c).arrAt 7 cfg0.N = result m c :=
  (dats m 0 c).arrAt_eq_of_cover 7 (result m c) (flushed_eq m c) (cover c)

/-- The kernel's run, read: the result array at the layer's output function, the seven arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Final

end
-- ==== Proof.RefValue.lean ====
/-
  The reference, read at an index over the extended reals, is the layer's output function.

  The reference computes the sampled weight and bias as whole arrays, contracts `x` with the weight along both
  operands' axis 1 in one product, and adds the bias broadcast over the rows. Read at `(b, o)`: the product is the sum
  over `k < 8192` of `x (b, k)` times the weight at `(o, k)`, and the two broadcasts read the bias at `o`. The host's
  exponential and `log (1 + ·)` are, on the extended reals, the same functions the kernel's vector operations are.
-/
import proofs.«161653_j28759101014467_1_alg».proof.Proof.Gen.ReferenceIdeal.Read
import proofs.«161653_j28759101014467_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.VarLinear

/-- The reference's last stage is the layer's output function of the seven arguments. -/
theorem result_eq (x0 : (⟨S256x8192, .f32⟩ : BufTy).Contents (Elt Ideal)) (x1 x2 : (⟨S8192x8192, .f32⟩ : BufTy).Contents (Elt Ideal))
    (x3 x4 : (⟨S8192, .f32⟩ : BufTy).Contents (Elt Ideal)) (x5 : (⟨S8192x8192, .f32⟩ : BufTy).Contents (Elt Ideal))
    (x6 : (⟨S8192, .f32⟩ : BufTy).Contents (Elt Ideal)) :
    val_main_v11 (F := Ideal) x0 x1 x2 x3 x4 x5 x6 = out x0 x1 x2 x3 x4 x5 x6 := by
  funext i
  obtain ⟨b, o, rfl⟩ : ∃ (b : Fin 256) (o : Fin 8192), i = ix2 b o := ⟨i 0, i 1, eq_ix2 i⟩
  have el : ∀ k : Fin 8192, lidx_main_v4 (ix2 b o) k = ix2 b k := fun k =>
    funext fun a => Fin.ext (by match a with | ⟨0, _⟩ => rfl | ⟨1, _⟩ => rfl)
  have er : ∀ k : Fin 8192, ridx_main_v4 (ix2 b o) k = ix2 o k := fun k =>
    funext fun a => Fin.ext (by match a with | ⟨0, _⟩ => rfl | ⟨1, _⟩ => rfl)
  have eb : idx_main_v9 (idx_main_v10 (ix2 b o)) = ix1 o :=
    funext fun a => Fin.ext (by match a with | ⟨0, _⟩ => rfl)
  rw [val_main_v11_apply, val_main_v4_apply, val_main_v10_apply, val_main_v9_apply, eb]
  simp only [el, er]
  rfl

end Cert.ReferenceIdeal.RefValue

end
-- ==== Proof.lean ====
/-
  A linear layer with reparameterized weights, against its plain reference, over the extended reals.

  Both programs take activations `x` [256, 8192], weight parameters `mu`, `rho`, `eps` [8192, 8192] and bias parameters
  `mub`, `rhob`, `epsb` [8192], and compute, with `softplus r = log (1 + exp r)`,

      out b o = (∑ k < 8192, x b k * (mu o k + softplus (rho o k) * eps o k)) + (mub o + softplus (rhob o) * epsb o).

  The reference forms the sampled weight and bias as whole arrays and takes one product. The kernel walks a grid of 16
  output tiles (512 columns of `out`) by 8 contraction tiles (1024 columns of `x`): at each point it forms the sampled
  weight of the tile, multiplies the activation tile by it into a zero accumulator and adds that to a running
  accumulator, which the first contraction tile resets to zero; at the last contraction tile it adds the sampled bias
  and the tile of `out` is written back. Over the extended reals the changes of float format on the way into the
  product are the identity, each tile product is a plain sum, and the eight partial sums of an output tile are the
  consecutive blocks of the one sum over 8192 columns — equal to it by commutativity and associativity of `+` alone,
  with no appeal to finiteness of the inputs. The ideal pass rewrote nothing, so the idealized kernel is the kernel's
  own text read over the extended reals.

  The modules: Spec (the output function), LibBlockSum (a sum read block by block), Payload (the body's three stored
  values at an index), Pieces (what each control case of the body leaves behind), Blocks (the loaded blocks as entries
  of the argument arrays), Accumulate (the accumulator across the contraction tiles), Final (from the written-back
  blocks to the whole result array, and the kernel's run), RefValue (the reference read at an index).
-/
import proofs.«161653_j28759101014467_1_alg».proof.Defs
import proofs.«161653_j28759101014467_1_alg».proof.Proof.Gen.Kernel
import proofs.«161653_j28759101014467_1_alg».proof.Proof.Gen.Kernel.Skeleton
import proofs.«161653_j28759101014467_1_alg».proof.Proof.Gen.Kernel.Launch
import proofs.«161653_j28759101014467_1_alg».proof.Proof.Gen.Kernel.Points
import proofs.«161653_j28759101014467_1_alg».proof.Proof.Gen.Kernel.Frame
import proofs.«161653_j28759101014467_1_alg».proof.Proof.Gen.KernelIdeal
import proofs.«161653_j28759101014467_1_alg».proof.Proof.Gen.KernelIdeal.Skeleton
import proofs.«161653_j28759101014467_1_alg».proof.Proof.Gen.KernelIdeal.Launch
import proofs.«161653_j28759101014467_1_alg».proof.Proof.Gen.KernelIdeal.Points
import proofs.«161653_j28759101014467_1_alg».proof.Proof.Gen.KernelIdeal.Frame
import proofs.«161653_j28759101014467_1_alg».proof.Proof.Gen.ReferenceIdeal
import proofs.«161653_j28759101014467_1_alg».proof.Proof.Gen.Pre_finite_inputs
import proofs.«161653_j28759101014467_1_alg».proof.Proof.Gen.KernelIdeal.Value
import proofs.«161653_j28759101014467_1_alg».proof.Proof.Gen.ReferenceIdeal.Run
import proofs.«161653_j28759101014467_1_alg».proof.Proof.Gen.ReferenceIdeal.Read
import proofs.«161653_j28759101014467_1_alg».proof.Proof.Final
import proofs.«161653_j28759101014467_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the seven arguments, the kernel's result array ends at the layer's output function of
    its launch arrays, and the reference's at its last stage, which is that same function of the same arrays. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
